-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x16 : Shape := ⟨2, ![1000000, 16]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S1000000x16 .f32) (main_arg3 : FVec F S64x256 .f32) (main_arg4 : FVec F S256 .f32) (main_arg5 : FVec F S256x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S1000000x16 : Shape := ⟨2, ![1000000, 16]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x256 : Shape := ⟨2, ![1, 256]⟩
abbrev S1x64 : Shape := ⟨2, ![1, 64]⟩
abbrev S5000x64 : Shape := ⟨2, ![5000, 64]⟩
abbrev S5000x256 : Shape := ⟨2, ![5000, 256]⟩

abbrev nBuf : Space → Nat
  | .hbm => 27
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x16, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S1x256, .f32⟩
  | .hbm, ⟨25, _⟩ => ⟨S1x64, .f32⟩
  | .hbm, ⟨26, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x16 : Shape := ⟨2, ![1000000, 16]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x16, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S100000x64, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.NodeMlp.lean ====
/-
  The function both programs compute, one node at a time.

  A node's feature row `x` (64 entries) and the row `a` of the neighbour aggregate are added, pushed through a dense
  layer `64 → 256` with bias, rectified against zero, and pushed through a dense layer `256 → 64` with bias:

      out q = (Σ k2, max ((Σ k1, (x k1 + a k1) * W1 k1 k2) + b1 k2) 0 * W2 k2 q) + b2 q

  on the extended reals. Nothing in the expression couples two rows, so an array of such rows may be cut into slabs of
  any height and each slab computed on its own: the value at (row, column) is the same. No law of arithmetic is used
  to pass from one program to the other — the two sides are this one expression, summand for summand — so finiteness of
  the inputs is never called upon.

  The rectifier's threshold is kept as the word of `+0.0` that both programs print: it is never evaluated. The two
  definitions are sealed once their defining equations are stated: everything downstream goes through `row_def` and
  `nodes_apply`.
-/
import Idealize.ShloMosaic.PureOps.Ideal
import Idealize.ShloMosaic.Lib.ValueIdx

noncomputable section

namespace NodeMlp

open Idealize.ShloMosaic Idealize.ShloMosaic.ValueIdx

/-- The rectifier's threshold: the word `0x00000000` read as an extended real. -/
abbrev threshold : EReal := Ideal.ofBits .f32 0x00000000#32

/-- One node through the two dense layers, at output column `q`. -/
def row (x a : Fin 64 → EReal) (W1 : Fin 64 → Fin 256 → EReal) (b1 : Fin 256 → EReal)
    (W2 : Fin 256 → Fin 64 → EReal) (b2 : Fin 64 → EReal) (q : Fin 64) : EReal :=
  (∑ k2 : Fin 256, max ((∑ k1 : Fin 64, (x k1 + a k1) * W1 k1 k2) + b1 k2) threshold * W2 k2 q) + b2 q

theorem row_def (x a : Fin 64 → EReal) (W1 : Fin 64 → Fin 256 → EReal) (b1 : Fin 256 → EReal)
    (W2 : Fin 256 → Fin 64 → EReal) (b2 : Fin 64 → EReal) (q : Fin 64) :
    row x a W1 b1 W2 b2 q
      = (∑ k2 : Fin 256, max ((∑ k1 : Fin 64, (x k1 + a k1) * W1 k1 k2) + b1 k2) threshold * W2 k2 q) + b2 q := rfl

/-- All 100000 nodes: entry (r, q) is row `r` of the features and of the aggregate through `row`, at column `q`. -/
def nodes (X A : (⟨2, ![100000, 64]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![100000, 64]⟩ : Shape).Idx → EReal :=
  fun i => row (fun k => X (ix2 (i 0) k)) (fun k => A (ix2 (i 0) k)) (fun k1 k2 => W1 (ix2 k1 k2))
    (fun k => b1 (ix1 k)) (fun k2 q => W2 (ix2 k2 q)) (fun q => b2 (ix1 q)) (i 1)

theorem nodes_apply (X A : (⟨2, ![100000, 64]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (r : Fin 100000) (q : Fin 64) :
    nodes X A W1 b1 W2 b2 (ix2 r q)
      = row (fun k => X (ix2 r k)) (fun k => A (ix2 r k)) (fun k1 k2 => W1 (ix2 k1 k2))
          (fun k => b1 (ix1 k)) (fun k2 q' => W2 (ix2 k2 q')) (fun q' => b2 (ix1 q')) q := rfl

attribute [irreducible] row nodes

end NodeMlp

end
-- ==== Proof.ReferenceNodes.lean ====
/-
  The reference program's result is `NodeMlp.nodes` of its arguments and of its own aggregate.

  The reference adds the aggregate to the features, multiplies by `W1` as one 100000-row product, adds the bias
  broadcast down the rows, takes the maximum with the zero splat, multiplies by `W2` and adds the second bias. Read at
  entry (r, q): the second product is a sum over the 256 hidden units, each hidden unit the rectified first product's
  entry (r, k2), itself a sum over the 64 input features of row r. The biases are read at their column only — the
  broadcasts forget the row. That is `NodeMlp.row` of row r, at column q. The aggregate (a gather followed by a
  scatter-add) is carried along as one unopened array: it is put behind a name before the two sides are compared.
-/
import proofs.«158510_j9672266350627_2_alg».proof.Proof.Gen.ReferenceIdeal.Read
import proofs.«158510_j9672266350627_2_alg».proof.Proof.NodeMlp

noncomputable section

namespace Cert.ReferenceIdeal.RefValue

open Cert.ReferenceIdeal Cert.ReferenceIdeal.Read Idealize.ShloMosaic Idealize.ShloMosaic.ValueIdx

/-! The composed index maps of the reference's stages, as coordinates. -/

/-- Feature `k1` of the row that hidden unit `k2` of output entry `i` is computed from: row `i 0`. -/
theorem features_idx (i : S100000x64.Idx) (k2 : Fin 256) (k1 : Fin 64) :
    lidx_main_v15 (lidx_main_v20 i k2) k1 = ix2 (i 0) k1 :=
  funext fun a => Fin.ext (by match a with | ⟨0, _⟩ => rfl | ⟨1, _⟩ => rfl)

/-- The first layer's weight met there: (k1, k2). -/
theorem weight1_idx (i : S100000x64.Idx) (k2 : Fin 256) (k1 : Fin 64) :
    ridx_main_v15 (lidx_main_v20 i k2) k1 = ix2 k1 k2 :=
  funext fun a => Fin.ext (by match a with | ⟨0, _⟩ => rfl | ⟨1, _⟩ => rfl)

/-- The first bias, broadcast twice, is read at the hidden unit alone. -/
theorem bias1_idx (i : S100000x64.Idx) (k2 : Fin 256) :
    idx_main_v16 (idx_main_v17 (lidx_main_v20 i k2)) = ix1 k2 :=
  funext fun a => Fin.ext (by match a with | ⟨0, _⟩ => rfl)

/-- The second layer's weight: (k2, column). -/
theorem weight2_idx (i : S100000x64.Idx) (k2 : Fin 256) : ridx_main_v20 i k2 = ix2 k2 (i 1) :=
  funext fun a => Fin.ext (by match a with | ⟨0, _⟩ => rfl | ⟨1, _⟩ => rfl)

/-- The second bias is read at the column alone. -/
theorem bias2_idx (i : S100000x64.Idx) : idx_main_v21 (idx_main_v22 i) = ix1 (i 1) :=
  funext fun a => Fin.ext (by match a with | ⟨0, _⟩ => rfl)

/-- The reference's last stage, entry by entry, is `NodeMlp.row` of the entry's row: the features `x0`, the
    reference's aggregate `val_main_v13 x0 x1`, the weights and the biases. -/
theorem result_nodes (x0 : (⟨S100000x64, .f32⟩ : BufTy).Contents (Elt Ideal)) (x1 : (⟨S2x1000000, .i32⟩ : BufTy).Contents (Elt Ideal))
    (x3 : (⟨S64x256, .f32⟩ : BufTy).Contents (Elt Ideal)) (x4 : (⟨S256, .f32⟩ : BufTy).Contents (Elt Ideal))
    (x5 : (⟨S256x64, .f32⟩ : BufTy).Contents (Elt Ideal)) (x6 : (⟨S64, .f32⟩ : BufTy).Contents (Elt Ideal)) :
    val_main_v23 (F := Ideal) x0 x1 x3 x4 x5 x6 = NodeMlp.nodes x0 (val_main_v13 (F := Ideal) x0 x1) x3 x4 x5 x6 := by
  funext i
  obtain ⟨r, q, rfl⟩ : ∃ (r : Fin 100000) (q : Fin 64), i = ix2 r q := ⟨i 0, i 1, eq_ix2 i⟩
  rw [NodeMlp.nodes_apply, NodeMlp.row_def]
  rw [val_main_v23_apply, val_main_v20_apply, val_main_v22_apply, val_main_v21_apply]
  simp only [val_main_v19_apply, val_main_v18_apply, val_main_v15_apply, val_main_v17_apply, val_main_v16_apply,
    val_main_call0_v0_apply, val_main_call0_cst_apply, val_main_v14_apply, Ideal.addf_def, Ideal.maximumf_def,
    Ideal.ofBits_def, features_idx, weight1_idx, bias1_idx, weight2_idx, bias2_idx]
  unfold val_main_v14
  simp only [addf_apply]
  generalize val_main_v13 (F := Ideal) x0 x1 = A
  rfl

end Cert.ReferenceIdeal.RefValue

end
-- ==== Proof.LibPlainMatmul.lean ====
/-
  A plain matrix product read at an index, at the ideal values.

  For the dimension numbers of an `M x K` by `K x N` product (contract the left operand's axis 1 with the right
  operand's axis 0, no batch axis), a product accumulated into the zero splat is, at row `r` and column `q`, the
  sum over `k : Fin K` of `a (r, k) * b (k, q)` on the extended reals: no rounding, no chunk order, and the
  contraction index is just its one coordinate.
-/
import Idealize.ShloMosaic.Lib.ValueIdx
import Idealize.ShloMosaic.PureOps.Ideal.Laws

namespace PlainMatmul

open Idealize.ShloMosaic Idealize.ShloMosaic.ValueIdx

variable {M K N : ℕ}

/-- The contraction index of a plain product is one coordinate below `K`. -/
noncomputable def kEquiv (M K N : ℕ) : (DotDims.plain M K N).contr.Idx ≃ Fin K :=
  contrEquiv1 (DotDims.plain M K N) K rfl rfl

/-- The left operand is read at (row, contraction coordinate). -/
theorem lhsIdx_plain (r : Fin M) (q : Fin N) (k : Fin K) :
    (DotDims.plain M K N).lhsIdx (ix2 r q) ((kEquiv M K N).symm k) = ix2 r k := by
  funext ax
  apply Fin.ext
  match ax with
  | ⟨0, _⟩ => rfl
  | ⟨1, _⟩ =>
    exact ((DotDims.plain M K N).lhsIdx_val_of_single (cl := 1) rfl (ix2 r q) ((kEquiv M K N).symm k)).trans
      (contrEquiv1_symm_val (DotDims.plain M K N) K rfl rfl k)

/-- The right operand is read at (contraction coordinate, column). -/
theorem rhsIdx_plain (r : Fin M) (q : Fin N) (k : Fin K) :
    (DotDims.plain M K N).rhsIdx (ix2 r q) ((kEquiv M K N).symm k) = ix2 k q := by
  funext ax
  apply Fin.ext
  match ax with
  | ⟨0, _⟩ =>
    exact ((DotDims.plain M K N).rhsIdx_val_of_single (cr := 0) rfl (ix2 r q) ((kEquiv M K N).symm k)).trans
      (contrEquiv1_symm_val (DotDims.plain M K N) K rfl rfl k)
  | ⟨1, _⟩ => rfl

/-- A plain product into the zero splat, at an index. -/
theorem matmul_zero_apply {φ₁ φ₂ : FTy} (prec : Option ContractPrecision)
    (a : FVec Ideal ⟨2, ![M, K]⟩ φ₁) (b : FVec Ideal ⟨2, ![K, N]⟩ φ₂) (r : Fin M) (q : Fin N) :
    FloatOps.matmul (DotDims.plain M K N) prec a b (constant ⟨2, ![M, N]⟩ .f32 0x00000000#32) (ix2 r q)
      = ∑ k : Fin K, a (ix2 r k) * b (ix2 k q) := by
  rw [Ideal.matmul_constant_zero_apply]
  rw [← Equiv.sum_comp (kEquiv M K N).symm]
  refine Finset.sum_congr rfl fun k _ => ?_
  rw [lhsIdx_plain, rhsIdx_plain]

end PlainMatmul
-- ==== Proof.SlabValue.lean ====
/-
  What the kernel body computes for one slab of 5000 nodes, entry by entry.

  The body loads the slab's feature rows and aggregate rows, both weight matrices and both bias rows, and stores one
  value: features plus aggregate, times `W1` (a product into the zero splat), plus the first bias row repeated down
  the slab, rectified against the zero splat, times `W2`, plus the second bias row repeated down the slab. The two
  narrowings to bf16 before each product change nothing on the extended reals. Read at row `p` of the slab and column
  `q`, each product is a plain sum over its contracted axis, each repeated bias row is read at its column, and what is
  left is `NodeMlp.row` of row `p` of the two loaded slabs.
-/
import proofs.«158510_j9672266350627_2_alg».proof.Proof.Gen.KernelIdeal.Skeleton
import proofs.«158510_j9672266350627_2_alg».proof.Proof.LibPlainMatmul
import proofs.«158510_j9672266350627_2_alg».proof.Proof.NodeMlp
import Idealize.ShloMosaic.Lib.Pipeline.Value
import Idealize.ShloMosaic.Lib.ValueIdx
import Idealize.ShloMosaic.PureOps.Ideal.Laws

noncomputable section

namespace Cert.KernelIdeal.Slab

open Cert.KernelIdeal Cert.KernelIdeal.Gen Idealize.ShloMosaic Idealize.ShloMosaic.ValueIdx

/-- The first product of the slab at (row, hidden unit): a sum over the 64 input features. -/
theorem product1_apply (h : FVec Ideal S5000x64 .bf16) (w : FVec Ideal S64x256 .bf16) (p : Fin 5000) (k2 : Fin 256) :
    matmul dot_S5000x64_S64x256_S5000x256_1_0_0_1_n_n none h w (constant (F := Ideal) S5000x256 .f32 0x00000000#32) (ix2 p k2)
      = ∑ k1 : Fin 64, h (ix2 p k1) * w (ix2 k1 k2) :=
  PlainMatmul.matmul_zero_apply (M := 5000) (K := 64) (N := 256) none h w p k2

/-- The second product of the slab at (row, column): a sum over the 256 hidden units. -/
theorem product2_apply (z : FVec Ideal S5000x256 .bf16) (w : FVec Ideal S256x64 .bf16) (p : Fin 5000) (q : Fin 64) :
    matmul dot_S5000x256_S256x64_S5000x64_1_0_0_1_n_n none z w (constant (F := Ideal) S5000x64 .f32 0x00000000#32) (ix2 p q)
      = ∑ k2 : Fin 256, z (ix2 p k2) * w (ix2 k2 q) :=
  PlainMatmul.matmul_zero_apply (M := 5000) (K := 256) (N := 64) none z w p q

/-- The first bias row repeated down the slab is read at its column. -/
theorem bias1_apply (b : FVec Ideal S1x256 .f32) (p : Fin 5000) (k2 : Fin 256) :
    broadcastTo S5000x256 b broadcasts_S1x256_S5000x256 (ix2 p k2) = b (ix2 (0 : Fin 1) k2) :=
  broadcastTo_apply b broadcasts_S1x256_S5000x256 (ix2 p k2) (ix2 (0 : Fin 1) k2) (fun a => by
    match a with
    | ⟨0, _⟩ => rfl
    | ⟨1, _⟩ => rfl)

/-- The second bias row repeated down the slab is read at its column. -/
theorem bias2_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

/-- The stored value at row `p` of the slab, column `q`: `NodeMlp.row` of row `p` of the loaded feature and
    aggregate slabs, with the loaded weights and the loaded bias rows. -/
theorem stored_apply (x0 x1 : Vec Ideal S5000x64 .f32) (x2 : Vec Ideal S64x256 .f32) (x3 : Vec Ideal S1x256 .f32)
    (x4 : Vec Ideal S256x64 .f32) (x5 : Vec Ideal S1x64 .f32) (p : Fin 5000) (q : Fin 64) :
    k0_pay1 (F := Ideal) x0 x1 x2 x3 x4 x5 (ix2 p q)
      = NodeMlp.row (fun k => x0 (ix2 p k)) (fun k => x1 (ix2 p k)) (fun k1 k2 => x2 (ix2 k1 k2))
          (fun k => x3 (ix2 (0 : Fin 1) k)) (fun k2 q' => x4 (ix2 k2 q')) (fun q' => x5 (ix2 (0 : Fin 1) q')) q := by
  rw [NodeMlp.row_def]
  unfold k0_pay1
  rw [addf_apply, product2_apply, bias2_apply]
  simp only [truncf_apply, maximumf_apply, addf_apply, broadcast_apply, product1_apply, bias1_apply, shapeCast_self]
  rfl

/-- The same against whole arrays: if row `p` of the two loaded slabs is row `r` of the feature array `X` and of the
    aggregate array `A`, the loaded weights are the weight arrays, and the loaded bias rows hold the bias vectors, then
    the stored value at (p, q) is entry (r, q) of `NodeMlp.nodes`. Everything here is a variable: the statement knows
    nothing of where the arrays come from. -/
theorem stored_eq_nodes (X A : (⟨2, ![100000, 64]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal)
    (x0 x1 : Vec Ideal S5000x64 .f32) (x2 : Vec Ideal S64x256 .f32) (x3 : Vec Ideal S1x256 .f32)
    (x4 : Vec Ideal S256x64 .f32) (x5 : Vec Ideal S1x64 .f32) (r : Fin 100000) (p : Fin 5000) (q : Fin 64)
    (h0 : ∀ k : Fin 64, x0 (ix2 p k) = X (ix2 r k)) (h1 : ∀ k : Fin 64, x1 (ix2 p k) = A (ix2 r k))
    (h2 : ∀ (k1 : Fin 64) (k2 : Fin 256), x2 (ix2 k1 k2) = W1 (ix2 k1 k2))
    (h3 : ∀ k2 : Fin 256, x3 (ix2 (0 : Fin 1) k2) = b1 (ix1 k2))
    (h4 : ∀ (k2 : Fin 256) (q' : Fin 64), x4 (ix2 k2 q') = W2 (ix2 k2 q'))
    (h5 : ∀ q' : Fin 64, x5 (ix2 (0 : Fin 1) q') = b2 (ix1 q')) :
    k0_pay1 (F := Ideal) x0 x1 x2 x3 x4 x5 (ix2 p q) = NodeMlp.nodes X A W1 b1 W2 b2 (ix2 r q) := by
  rw [stored_apply, NodeMlp.nodes_apply]
  simp only [h0, h1, h2, h3, h4, h5]

end Cert.KernelIdeal.Slab

end
-- ==== Proof.KernelNodes.lean ====
/-
  From the slabs to the whole array.

  The grid has 20 points. At point `t` the two row-tiled windows (features, aggregate) hold rows `5000 t … 5000 t + 4999`
  of their arrays, the four untiled windows (both weight matrices, both bias rows) hold their whole arrays, and the
  output window's block is rows `5000 t … 5000 t + 4999` of the result. So row `p` of slab `t` is node `5000 t + p`,
  what the point writes back is the block of `NodeMlp.nodes` it covers, and the 20 blocks cover all 100000 rows (row
  `r` lies in the block of point `r / 5000`): the result array ends holding `NodeMlp.nodes`. The bias rows reach the
  region as `1 × n` reshapes of the bias vectors; entry (0, k) of the reshape is entry k of the vector.

  Where a block sits in its array is a fact about the window alone, so each such fact is stated for an arbitrary array;
  the aggregate, which the host code computed before the region, is only ever passed along as that array.
-/
import proofs.«158510_j9672266350627_2_alg».proof.Proof.Gen.KernelIdeal.Value
import proofs.«158510_j9672266350627_2_alg».proof.Proof.SlabValue
import proofs.«158510_j9672266350627_2_alg».proof.Proof.NodeMlp
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Nodes

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem point_lt (t : Fin cfg0.N) : t.val < 20 := lt_of_lt_of_eq t.isLt N_0

/-- Row `p` of slab `t` is node `5000 t + p`. -/
def node (t : Fin cfg0.N) (p : Fin 5000) : Fin 100000 :=
  ⟨5000 * t.val + p.val, by have := point_lt t; have := p.isLt; omega⟩

/-- The printed index maps over the 20 points: the row-tiled windows sit at block row `t`, the others at the origin. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## Where each window's block sits in its array (any array) -/

/-- The feature window's block at point `t`, row `p`, is row `5000 t + p` of its array. -/
theorem read_features (X : S100000x64.Idx → EReal) (t : Fin cfg0.N) (p : Fin 5000) (k : Fin 64) :
    (((cfg0.win 0).blk t).view.read (Elt Ideal) X : Vec Ideal S5000x64 .f32) (ix2 p k) = X (ix2 (node t p) k) := by
  obtain ⟨⟨h0, h1⟩, -⟩ := block_index t
  show X (((cfg0.win 0).blk t).view.emb (ix2 p k)) = X (ix2 (node t p) k)
  congr 1
  funext a; apply Fin.ext
  match a with
  | ⟨0, _⟩ => show win0_0.index t (0 : Fin 2) * 5000 + 1 * p.val = 5000 * t.val + p.val; rw [h0]; omega
  | ⟨1, _⟩ => show win0_0.index t (1 : Fin 2) * 64 + 1 * k.val = k.val; rw [h1]; omega

/-- The aggregate window's block at point `t`, row `p`, is row `5000 t + p` of its array. -/
theorem read_aggregate (A : S100000x64.Idx → EReal) (t : Fin cfg0.N) (p : Fin 5000) (k : Fin 64) :
    (((cfg0.win 1).blk t).view.read (Elt Ideal) A : Vec Ideal S5000x64 .f32) (ix2 p k) = A (ix2 (node t p) k) := by
  obtain ⟨-, ⟨h0, h1⟩, -⟩ := block_index t
  show A (((cfg0.win 1).blk t).view.emb (ix2 p k)) = A (ix2 (node t p) k)
  congr 1
  funext a; apply Fin.ext
  match a with
  | ⟨0, _⟩ => show win0_1.index t (0 : Fin 2) * 5000 + 1 * p.val = 5000 * t.val + p.val; rw [h0]; omega
  | ⟨1, _⟩ => show win0_1.index t (1 : Fin 2) * 64 + 1 * k.val = k.val; rw [h1]; omega

/-- The first weight window's block is its whole array, at every point. -/
theorem read_weight1 (W : S64x256.Idx → EReal) (t : Fin cfg0.N) (k1 : Fin 64) (k2 : Fin 256) :
    (((cfg0.win 2).blk t).view.read (Elt Ideal) W : Vec Ideal S64x256 .f32) (ix2 k1 k2) = W (ix2 k1 k2) := by
  obtain ⟨-, -, ⟨h0, h1⟩, -⟩ := block_index t
  show W (((cfg0.win 2).blk t).view.emb (ix2 k1 k2)) = W (ix2 k1 k2)
  congr 1
  funext a; apply Fin.ext
  match a with
  | ⟨0, _⟩ => show win0_2.index t (0 : Fin 2) * 64 + 1 * k1.val = k1.val; rw [h0]; omega
  | ⟨1, _⟩ => show win0_2.index t (1 : Fin 2) * 256 + 1 * k2.val = k2.val; rw [h1]; omega

/-- The first bias window's block is its whole one-row array, at every point. -/
theorem read_bias1 (B : S1x256.Idx → EReal) (t : Fin cfg0.N) (k2 : Fin 256) :
    (((cfg0.win 3).blk t).view.read (Elt Ideal) B : Vec Ideal S1x256 .f32) (ix2 (0 : Fin 1) k2) = B (ix2 (0 : Fin 1) k2) := by
  obtain ⟨-, -, -, ⟨h0, h1⟩, -⟩ := block_index t
  show B (((cfg0.win 3).blk t).view.emb (ix2 (0 : Fin 1) k2)) = B (ix2 (0 : Fin 1) k2)
  congr 1
  funext a; apply Fin.ext
  match a with
  | ⟨0, _⟩ => show win0_3.index t (0 : Fin 2) * 1 + 1 * 0 = 0; rw [h0]
  | ⟨1, _⟩ => show win0_3.index t (1 : Fin 2) * 256 + 1 * k2.val = k2.val; rw [h1]; omega

/-- The second weight window's block is its whole array, at every point. -/
theorem read_weight2 (W : S256x64.Idx → EReal) (t : Fin cfg0.N) (k2 : Fin 256) (q : Fin 64) :
    (((cfg0.win 4).blk t).view.read (Elt Ideal) W : Vec Ideal S256x64 .f32) (ix2 k2 q) = W (ix2 k2 q) := by
  obtain ⟨-, -, -, -, ⟨h0, h1⟩, -⟩ := block_index t
  show W (((cfg0.win 4).blk t).view.emb (ix2 k2 q)) = W (ix2 k2 q)
  congr 1
  funext a; apply Fin.ext
  match a with
  | ⟨0, _⟩ => show win0_4.index t (0 : Fin 2) * 256 + 1 * k2.val = k2.val; rw [h0]; omega
  | ⟨1, _⟩ => show win0_4.index t (1 : Fin 2) * 64 + 1 * q.val = q.val; rw [h1]; omega

/-- The second bias window's block is its whole one-row array, at every point. -/
theorem read_bias2 (B : S1x64.Idx → EReal) (t : Fin cfg0.N) (q : Fin 64) :
    (((cfg0.win 5).blk t).view.read (Elt Ideal) B : Vec Ideal S1x64 .f32) (ix2 (0 : Fin 1) q) = B (ix2 (0 : Fin 1) q) := by
  obtain ⟨-, -, -, -, -, ⟨h0, h1⟩, -⟩ := block_index t
  show B (((cfg0.win 5).blk t).view.emb (ix2 (0 : Fin 1) q)) = B (ix2 (0 : Fin 1) q)
  congr 1
  funext a; apply Fin.ext
  match a with
  | ⟨0, _⟩ => show win0_5.index t (0 : Fin 2) * 1 + 1 * 0 = 0; rw [h0]
  | ⟨1, _⟩ => show win0_5.index t (1 : Fin 2) * 64 + 1 * q.val = q.val; rw [h1]; omega

/-- The output window's block at point `t`, entry (p, q), is entry (5000 t + p, q) of the result array. -/
theorem out_emb (t : Fin cfg0.N) (p : Fin 5000) (q : Fin 64) :
    ((cfg0.win 6).blk t).view.emb (ix2 p q) = (ix2 (node t p) q : S100000x64.Idx) := by
  obtain ⟨-, -, -, -, -, -, ⟨h0, h1⟩⟩ := block_index t
  funext a; apply Fin.ext
  match a with
  | ⟨0, _⟩ => show win0_6.index t (0 : Fin 2) * 5000 + 1 * p.val = 5000 * t.val + p.val; rw [h0]; omega
  | ⟨1, _⟩ => show win0_6.index t (1 : Fin 2) * 64 + 1 * q.val = q.val; rw [h1]; omega

/-! ## The bias rows as the region finds them -/

/-- The first bias row is the `1 × 256` reshape of the bias vector. -/
theorem bias1_row (c : Dev nD) :
    (V m c main_v14 : S1x256.Idx → EReal) = shapeCast S1x256 (m ((c : Thread nD τ).loc main_arg4)) shapeCasts_S256_S1x256 := by
  dsimp only [Gen.V, Gen.hostOps0]; after_results; rfl

/-- Entry (0, k) of it is entry k of the vector. -/
theorem bias1_read (c : Dev nD) (k : Fin 256) :
    (V m c main_v14 : S1x256.Idx → EReal) (ix2 (0 : Fin 1) k) = (m ((c : Thread nD τ).loc main_arg4) : S256.Idx → EReal) (ix1 k) := by
  rw [bias1_row]
  exact shapeCast_apply _ shapeCasts_S256_S1x256 (ix2 (0 : Fin 1) k) (ix1 k)
    (by rewrite [Shape.rowMajor_val_one, Shape.rowMajor_val_two]; show k.val = 0 * 256 + k.val; omega)

/-- The second bias row is the `1 × 64` reshape of the bias vector. -/
theorem bias2_row (c : Dev nD) :
    (V m c main_v15 : S1x64.Idx → EReal) = shapeCast S1x64 (m ((c : Thread nD τ).loc main_arg6)) shapeCasts_S64_S1x64 := by
  dsimp only [Gen.V, Gen.hostOps0]; after_results; rfl

/-- Entry (0, q) of it is entry q of the vector. -/
theorem bias2_read (c : Dev nD) (q : Fin 64) :
    (V m c main_v15 : S1x64.Idx → EReal) (ix2 (0 : Fin 1) q) = (m ((c : Thread nD τ).loc main_arg6) : S64.Idx → EReal) (ix1 q) := by
  rw [bias2_row]
  exact shapeCast_apply _ shapeCasts_S64_S1x64 (ix2 (0 : Fin 1) q) (ix1 q)
    (by rewrite [Shape.rowMajor_val_one, Shape.rowMajor_val_two]; show q.val = 0 * 64 + q.val; omega)

/-! ## The six staged blocks at a point, against the arguments -/

theorem features_blk (c : Dev nD) (t : Fin cfg0.N) (p : Fin 5000) (k : Fin 64) :
    (iblk m c 0 t : Vec Ideal S5000x64 .f32) (ix2 p k) = (m ((c : Thread nD τ).loc main_arg0) : S100000x64.Idx → EReal) (ix2 (node t p) k) := by
  unfold iblk
  rw [read_features]
  exact congrFun (V_main_arg0 m c) _

/-- The aggregate is left as the region finds it: `V m c main_v13`, never opened here. -/
theorem aggregate_blk (c : Dev nD) (t : Fin cfg0.N) (p : Fin 5000) (k : Fin 64) :
    (iblk m c 1 t : Vec Ideal S5000x64 .f32) (ix2 p k) = (V m c main_v13 : S100000x64.Idx → EReal) (ix2 (node t p) k) := by
  unfold iblk
  exact read_aggregate (V m c main_v13) t p k

theorem weight1_blk (c : Dev nD) (t : Fin cfg0.N) (k1 : Fin 64) (k2 : Fin 256) :
    (iblk m c 2 t : Vec Ideal S64x256 .f32) (ix2 k1 k2) = (m ((c : Thread nD τ).loc main_arg3) : S64x256.Idx → EReal) (ix2 k1 k2) := by
  unfold iblk
  rw [read_weight1]
  exact congrFun (V_main_arg3 m c) _

theorem bias1_blk (c : Dev nD) (t : Fin cfg0.N) (k2 : Fin 256) :
    (iblk m c 3 t : Vec Ideal S1x256 .f32) (ix2 (0 : Fin 1) k2) = (m ((c : Thread nD τ).loc main_arg4) : S256.Idx → EReal) (ix1 k2) := by
  unfold iblk
  rw [read_bias1]
  exact bias1_read m c k2

theorem weight2_blk (c : Dev nD) (t : Fin cfg0.N) (k2 : Fin 256) (q : Fin 64) :
    (iblk m c 4 t : Vec Ideal S256x64 .f32) (ix2 k2 q) = (m ((c : Thread nD τ).loc main_arg5) : S256x64.Idx → EReal) (ix2 k2 q) := by
  unfold iblk
  rw [read_weight2]
  exact congrFun (V_main_arg5 m c) _

theorem bias2_blk (c : Dev nD) (t : Fin cfg0.N) (q : Fin 64) :
    (iblk m c 5 t : Vec Ideal S1x64 .f32) (ix2 (0 : Fin 1) q) = (m ((c : Thread nD τ).loc main_arg6) : S64.Idx → EReal) (ix1 q) := by
  unfold iblk
  rw [read_bias2]
  exact bias2_read m c q

/-! ## The result array -/

/-- What the result array ends holding: every node through the two layers, from the arguments as launched and the
    aggregate as the host code left it. -/
abbrev result (c : Dev nD) : S100000x64.Idx → EReal :=
  NodeMlp.nodes (m ((c : Thread nD τ).loc main_arg0)) (V m c main_v13) (m ((c : Thread nD τ).loc main_arg3))
    (m ((c : Thread nD τ).loc main_arg4)) (m ((c : Thread nD τ).loc main_arg5)) (m ((c : Thread nD τ).loc main_arg6))

/-- WHAT POINT `t` WRITES BACK is the block of `result` it covers. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S5000x64) hz, View.ld_unit_zero (S := S64x256) hz, View.ld_unit_zero (S := S1x256) hz,
    View.ld_unit_zero (S := S256x64) hz, View.ld_unit_zero (S := S1x64) hz]
  funext j
  obtain ⟨p, q, rfl⟩ : ∃ (p : Fin 5000) (q : Fin 64), j = ix2 p q := ⟨j 0, j 1, eq_ix2 j⟩
  show k0_pay1 (iblk m c 0 t) (iblk m c 1 t) (iblk m c 2 t) (iblk m c 3 t) (iblk m c 4 t) (iblk m c 5 t) (ix2 p q)
    = result m c (((cfg0.win 6).blk t).view.emb (ix2 p q))
  rw [out_emb]
  exact Slab.stored_eq_nodes (m ((c : Thread nD τ).loc main_arg0)) (V m c main_v13) (m ((c : Thread nD τ).loc main_arg3))
    (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (node t p) p q
    (features_blk m c t p) (aggregate_blk m c t p) (weight1_blk m c t) (bias1_blk m c t) (weight2_blk m c t) (bias2_blk m c t)

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every row lies in some point's block: row `r` in that of point `r / 5000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, -, -, ⟨h0, h1⟩⟩ := block_index t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [h0, ht]; omega
  | ⟨1, _⟩ => show win0_6.index t (1 : Fin 2) * 64 ≤ (i 1).val ∧ (i 1).val < win0_6.index t (1 : Fin 2) * 64 + 64; rw [h1]; omega

/-- THE ARRAY after the run is `result`. -/
theorem final (c : Dev nD) : (dats m 0 c).arrAt 6 cfg0.N = result m c :=
  (dats m 0 c).arrAt_eq_of_cover 6 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Nodes

end
-- ==== Proof.Aggregate.lean ====
/-
  Both programs aggregate the same way.

  Before its region the kernel's host code slices the two rows of the edge list, wraps negative source indices by
  adding the node count, gathers the source rows of the features and scatter-adds them into a zero array at the
  destination rows. The reference does the same, operation for operation, with the same dimension numbers and the same
  literals. So the array the region finds as its aggregate is the reference's aggregate stage of the same arguments: the
  two terms are one. The gather and the scatter are never opened: the reference's stages are spelt out down to its
  arguments, and the two spellings are then compared operation by operation.
-/
import proofs.«158510_j9672266350627_2_alg».proof.Proof.Gen.KernelIdeal.Frame
import proofs.«158510_j9672266350627_2_alg».proof.Proof.Gen.ReferenceIdeal.Read
import Idealize.ShloMosaic.Lib.StableHlo.Run

noncomputable section

namespace Cert.Proof.Aggregate

open Idealize.ShloMosaic Idealize.ShloMosaic.TcCoe Idealize.SL.Sem Idealize.ShloMosaic.StableHlo

/-- The aggregate as the kernel's region finds it is the reference's aggregate stage of the features and the edge list. -/
theorem prologue_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v13 : Cert.KernelIdeal.S100000x64.Idx → EReal)
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results
  unfold Cert.ReferenceIdeal.Read.val_main_v13 Cert.ReferenceIdeal.Read.val_main_v12 Cert.ReferenceIdeal.Read.val_main_v11 Cert.ReferenceIdeal.Read.val_main_cst Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v3 Cert.ReferenceIdeal.Read.val_main_v2 Cert.ReferenceIdeal.Read.val_main_v1 Cert.ReferenceIdeal.Read.val_main_v0
  rfl

end Cert.Proof.Aggregate

end
-- ==== Proof.lean ====
/-
  A graph-isomorphism layer on 100000 nodes and 1000000 edges: the kernel against its reference.

  Both programs first aggregate: for every edge the source node's feature row is gathered and added into the
  destination node's row of a zero array. They do this with the same host operations on the same arguments, so the two
  aggregates are one array (`Aggregate.prologue_eq`); it is never opened. Then every node's row `x + a` (features plus
  aggregate) goes through two dense layers with a rectifier between them (`NodeMlp.row`):

      out q = (Σ k2, max ((Σ k1, (x k1 + a k1) * W1 k1 k2) + b1 k2) 0 * W2 k2 q) + b2 q.

  The reference does this for all 100000 rows at once (`RefValue.result_nodes`). The kernel cuts the rows into 20 slabs
  of 5000, narrows the operands of each product to bf16 — the identity on the extended reals — and computes each slab
  with products into a zero accumulator (`Slab.stored_apply`); slab `t`'s row `p` is node `5000 t + p`, and the 20
  written blocks cover the result (`Nodes.final`). Rows do not interact, so the two results agree entry by entry with no
  law of arithmetic between them: the claim holds for every input, finite or not, and the precondition is not used.

  The three frames are the generated ones (the reference's is its generated run with the result dropped); the
  idealization rewrote nothing, so `preserves` is trivial.
-/
import proofs.«158510_j9672266350627_2_alg».proof.Defs
import proofs.«158510_j9672266350627_2_alg».proof.Proof.Gen.Kernel
import proofs.«158510_j9672266350627_2_alg».proof.Proof.Gen.Kernel.Skeleton
import proofs.«158510_j9672266350627_2_alg».proof.Proof.Gen.Kernel.Launch
import proofs.«158510_j9672266350627_2_alg».proof.Proof.Gen.Kernel.Points
import proofs.«158510_j9672266350627_2_alg».proof.Proof.Gen.Kernel.Frame
import proofs.«158510_j9672266350627_2_alg».proof.Proof.Gen.KernelIdeal
import proofs.«158510_j9672266350627_2_alg».proof.Proof.Gen.KernelIdeal.Skeleton
import proofs.«158510_j9672266350627_2_alg».proof.Proof.Gen.KernelIdeal.Launch
import proofs.«158510_j9672266350627_2_alg».proof.Proof.Gen.KernelIdeal.Points
import proofs.«158510_j9672266350627_2_alg».proof.Proof.Gen.KernelIdeal.Frame
import proofs.«158510_j9672266350627_2_alg».proof.Proof.Gen.ReferenceIdeal
import proofs.«158510_j9672266350627_2_alg».proof.Proof.Gen.Pre_finite_inputs
import proofs.«158510_j9672266350627_2_alg».proof.Proof.Gen.KernelIdeal.Value
import proofs.«158510_j9672266350627_2_alg».proof.Proof.Gen.ReferenceIdeal.Run
import proofs.«158510_j9672266350627_2_alg».proof.Proof.Gen.ReferenceIdeal.Read
import proofs.«158510_j9672266350627_2_alg».proof.Proof.NodeMlp
import proofs.«158510_j9672266350627_2_alg».proof.Proof.ReferenceNodes
import proofs.«158510_j9672266350627_2_alg».proof.Proof.KernelNodes
import proofs.«158510_j9672266350627_2_alg».proof.Proof.Aggregate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `NodeMlp.nodes` of the arguments and of the aggregate
    its host code left, the reference's at `NodeMlp.nodes` of the arguments and of its own aggregate stage: one array. -/
theorem algebraic : Cert.algebraic_KernelIdeal_ReferenceIdeal := by
  intro m ρ m' ρ' _ hagree
  refine ⟨fun c => Cert.KernelIdeal.Nodes.result m c, Cert.KernelIdeal.Nodes.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6⟩ := hagree c
  rw [Cert.ReferenceIdeal.Read.val_main_v23_eq, Cert.ReferenceIdeal.RefValue.result_nodes, a0, a1, a3, a4, a5, a6,
    ← Cert.Proof.Aggregate.prologue_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
